-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S256x256 : Shape := ⟨2, ![256, 256]⟩
abbrev S256 : Shape := ⟨1, ![256]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S256x256 .f32) (main_arg3 : FVec F S256 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S256x256 : Shape := ⟨2, ![256, 256]⟩
abbrev S256 : Shape := ⟨1, ![256]⟩
abbrev S128x256 : Shape := ⟨2, ![128, 256]⟩
abbrev S1x256 : Shape := ⟨2, ![1, 256]⟩
abbrev S10000x256 : Shape := ⟨2, ![10000, 256]⟩
abbrev S400x10000 : Shape := ⟨2, ![400, 10000]⟩
abbrev S400x256 : Shape := ⟨2, ![400, 256]⟩
abbrev S400x128 : Shape := ⟨2, ![400, 128]⟩

abbrev nBuf : Space → Nat
  | .hbm => 8
  | .vmem => 8
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S256x256, .f32⟩
  | .hbm, ⟨3, _⟩ => ⟨S256, .f32⟩
  | .hbm, ⟨4, _⟩ => ⟨S128x256, .f32⟩
  | .hbm, ⟨5, _⟩ => ⟨S128x256, .f32⟩
  | .hbm, ⟨6, _⟩ => ⟨S1x256, .f32⟩
  | .hbm, ⟨7, _⟩ => ⟨S10000x256, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x256, .f32⟩
  | .local _ .vmem, ⟨4, _⟩ => ⟨S128x256, .f32⟩
  | .local _ .vmem, ⟨5, _⟩ => ⟨S1x256, .f32⟩
  | .local _ .vmem, ⟨6, _⟩ => ⟨S400x256, .f32⟩
  | .local _ .vmem, ⟨7, _⟩ => ⟨S400x256, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c400_i32 : BitVec 32 := 400#32
  let v0 : BitVec 32 := Scalar.muli arg0 c400_i32
  let v1 : Index := Scalar.indexCast v0
  let c0 : Index := 0#32
  ![v1.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S256x256_S128x256_0_0 : S256x256.Slices ![0, 0] S128x256
  slices_S256x256_S128x256_128_0 : S256x256.Slices ![128, 0] S128x256
  shapeCasts_S256_S1x256 : S256.ShapeCasts S1x256
  h_S400x128 : 0 < S400x128.numel
  inb_S400x10000_S400x10000_0_0 : ∀ a, (![0, 0] : Fin 2 → Nat) a + S400x10000.size a ≤ S400x10000.size a
  h_S400x10000 : 0 < S400x10000.numel
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S400x256 : S1x256.Broadcasts S400x256
  inb_S400x256_S400x256_0_0 : ∀ a, (![0, 0] : Fin 2 → Nat) a + S400x256.size a ≤ S400x256.size a
  h_S400x256 : 0 < S400x256.numel
  dot_S400x10000_S10000x128_S400x128_1_0_0_1_n_n_wf : DotDims.WF S400x10000 S10000x128 S400x128 [1] [0] [0] [1] [] []
  dot_S400x128_S128x256_S400x256_1_0_0_1_n_n_wf : DotDims.WF S400x128 S128x256 S400x256 [1] [0] [0] [1] [] []
  hrank0 : 0 < grid0.rank
  k0_off1_inb : ∀ i : grid0.Coords, ∀ a, (k0_off1 i) a + S400x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x256.size a ≤ S10000x256.size a
  hwx0_5 : ∀ i : grid0.Coords, EltTy.bits .f32 = 32 ∨ (Rect.block (s := S10000x256) S400x256.size (cc0_transform_5 i) (hinb0_5 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x256_S400x256_1_0_0_1_n_n : DotDims S400x128 S128x256 S400x256 where
  lhsContracting := [1]
  rhsContracting := [0]
  lhsNonContracting := [0]
  rhsNonContracting := [1]
  lhsBatch := []
  rhsBatch := []
  wf := dot_S400x128_S128x256_S400x256_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S400x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S256x256 : Shape := ⟨2, ![256, 256]⟩
abbrev S256 : Shape := ⟨1, ![256]⟩
abbrev S10000x256 : Shape := ⟨2, ![10000, 256]⟩
abbrev S1x256 : Shape := ⟨2, ![1, 256]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S256x256, .f32⟩
  | .hbm, ⟨3, _⟩ => ⟨S256, .f32⟩
  | .hbm, ⟨4, _⟩ => ⟨S10000x128, .f32⟩
  | .hbm, ⟨5, _⟩ => ⟨S10000x256, .f32⟩
  | .hbm, ⟨6, _⟩ => ⟨S10000x256, .f32⟩
  | .hbm, ⟨7, _⟩ => ⟨S1x256, .f32⟩
  | .hbm, ⟨8, _⟩ => ⟨S10000x256, .f32⟩
  | .hbm, ⟨9, _⟩ => ⟨S10000x256, .f32⟩
  | .hbm, ⟨10, _⟩ => ⟨S_, .f32⟩
  | .hbm, ⟨11, _⟩ => ⟨S10000x256, .f32⟩
  | .hbm, ⟨12, _⟩ => ⟨S10000x256, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_cst : Ref sig .tc := ⟨.hbm, 10, rfl⟩
abbrev main_call0_v0 : Ref sig .tc := ⟨.hbm, 11, rfl⟩
abbrev main_v6 : Ref sig .tc := ⟨.hbm, 12, rfl⟩

abbrev nD : Nat := 1
abbrev τ : Topo := Topo.v7x

variable {F : FTy → Type} [FloatOps F]

class Facts₀ : Prop where
  concatenates_S10000x128_S10000x128_S10000x256_d1 : Shape.Concatenates [S10000x128, S10000x128] S10000x256 1
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  dot_S10000x10000_S10000x128_S10000x128_1_0_0_1_n_n_wf : DotDims.WF S10000x10000 S10000x128 S10000x128 [1] [0] [0] [1] [] []
  dot_S10000x256_S256x256_S10000x256_1_0_0_1_n_n_wf : DotDims.WF S10000x256 S256x256 S10000x256 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf

class Facts : Prop extends Facts₀ where

variable [Facts]
-- ==== Proof.Block.lean ====
/-
  What one grid point leaves in the output's staging buffer, as a value.

  The body stores once, through the whole 400 x 256 staging buffer, the value it computed from its loads: the block's
  rows of the adjacency, all the features, the two halves of the weights and the bias row, each read whole, and the
  block's own 400 rows of the features, read out of the whole feature array at the row offset the grid coordinate
  gives. So what the buffer holds after the body is that one stored value.
-/
import proofs.«121280_g30348238914072_cont_9to1_1777_12_alg».proof.Proof.Gen.KernelIdeal.Frame
import Idealize.ShloMosaic.Lib.Pipeline.Value

set_option maxRecDepth 16384

noncomputable section

namespace Cert.KernelIdeal.Block

open Cert.KernelIdeal Cert.KernelIdeal.Gen
open Idealize.ShloMosaic Idealize.ShloMosaic.TcCoe Idealize.ShloMosaic.Tactic
open Idealize.SL Idealize.SL.Sem

variable {F : FTy → Type} [FloatOps F]

/-- The offsets of a whole-buffer access, however the zeros are spelt. -/
theorem zero_off : (![0, 0] : Fin 2 → Nat) = fun _ => 0 := by
  funext a; match a with | ⟨0, _⟩ => rfl | ⟨1, _⟩ => rfl

/-- After the body the output's staging buffer holds the body's stored value of its loads; the block's own rows of the
    features are the whole feature array read through the 400 x 128 rectangle at the point's row offset. -/
theorem out_eq (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S400x256 .f32) (harg6 : arg6.IsWhole)
    (x0 : Vec F S400x10000 .f32) (x1 : Vec F S10000x128 .f32) (x2 : Vec F S128x256 .f32) (x3 : Vec F S128x256 .f32) (x4 : Vec F S1x256 .f32) :
    out0_A_5 c i arg1 harg1 arg2 harg2 arg3 harg3 arg4 harg4 arg5 harg5 arg6 harg6 x0 x1 x2 x3 x4
      = k0_pay1 (View.ld x1 (Rect.unit (s := S10000x128) (k0_off1 i) S400x128.size (k0_off1_inb i))) x0 x1 x2 x3 x4 := by
  unfold out0_A_5
  rw [View.read_writes_eq_canon _ _ _ (cover0_A_5 c i arg1 harg1 arg2 harg2 arg3 harg3 arg4 harg4 arg5 harg5 arg6 harg6 x0 x1 x2 x3 x4)]
  unfold kernelRun0_A
  dsimp only
  rw [View.canon_unit_zero zero_off]
  simp only [View.readAt_eq_ld, harg1.read_unread, harg2.read_unread, harg3.read_unread, harg4.read_unread, harg5.read_unread,
    View.ld_unit_zero (S := S400x10000) zero_off, View.ld_unit_zero (S := S10000x128) zero_off,
    View.ld_unit_zero (S := S128x256) zero_off, View.ld_unit_zero (S := S1x256) zero_off]

end Cert.KernelIdeal.Block

end
-- ==== Proof.LibMatmul.lean ====
/-
  A plain matrix product read at an entry, over the extended reals.

  A two-dimensional contraction `[M, K] × [K, N] → [M, N]` whose dimension numbers contract the left operand's
  second axis with the right operand's first, with no batch axis, accumulated into the zero matrix, has at the
  entry `(p, q)` the value `∑ k, lhs (p, k) * rhs (k, q)`: the textbook sum over the `K` positions of the
  contracted axis, with no order or grouping left in it.
-/
import Idealize.ShloMosaic.PureOps.Ideal.Laws
import Idealize.ShloMosaic.Lib.ValueIdx

noncomputable section

open scoped BigOperators
open Idealize.ShloMosaic Idealize.ShloMosaic.ValueIdx

namespace PlainMatmul

variable {M K N : ℕ}

/-- The dimension numbers of a plain product: rows times columns, one contracted axis, no batch axis. -/
structure IsPlain (d : DotDims (⟨2, ![M, K]⟩ : Shape) (⟨2, ![K, N]⟩ : Shape) (⟨2, ![M, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![M, K]⟩ : Shape) (⟨2, ![K, N]⟩ : Shape) (⟨2, ![M, N]⟩ : Shape)}

theorem IsPlain.rank (h : IsPlain d) : d.contr.rank = 1 := by rw [d.rank_contr, h.lc]; rfl

theorem IsPlain.size (h : IsPlain d) : d.contr.size ⟨0, by rw [h.rank]; exact Nat.one_pos⟩ = K := by
  rw [d.size_contr 0 (by rw [h.lc]; exact Nat.one_pos)]
  simp only [h.lc]
  rfl

/-- The left operand is read at row `p` of the output entry … -/
theorem IsPlain.lhs_row (h : IsPlain d) (j : (⟨2, ![M, N]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln])

/-- … and the right operand at column `q`. -/
theorem IsPlain.rhs_col (h : IsPlain d) (j : (⟨2, ![M, N]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln, h.rn])

/-- A plain product into the zero matrix, at the entry `(p, q)`, is the sum over the contracted axis of the
    products of the left operand's row `p` with the right operand's column `q`. -/
theorem apply {φ₁ φ₂ : FTy} (h : IsPlain d) (prec : Option ContractPrecision)
    (lhs : FVec Ideal (⟨2, ![M, K]⟩ : Shape) φ₁) (rhs : FVec Ideal (⟨2, ![K, N]⟩ : Shape) φ₂) (p : Fin M) (q : Fin N) :
    FloatOps.matmul d prec lhs rhs (constant (⟨2, ![M, N]⟩ : Shape) .f32 0x00000000#32) (ix2 p q)
      = ∑ k : Fin K, (lhs (ix2 p k) : EReal) * (rhs (ix2 k q) : EReal) := by
  rw [Ideal.matmul_constant_zero_apply]
  rw [← Equiv.sum_comp (contrEquiv1 d K h.rank h.size).symm]
  refine Finset.sum_congr rfl fun k _ => ?_
  have hl : d.lhsIdx (ix2 p q) ((contrEquiv1 d K h.rank h.size).symm k) = ix2 p k := by
    funext a
    apply Fin.ext
    match a with
    | ⟨0, _⟩ => exact h.lhs_row _ _
    | ⟨1, _⟩ => exact (d.lhsIdx_val_of_single h.lc _ _).trans (contrEquiv1_symm_val d K h.rank h.size k)
  have hr : d.rhsIdx (ix2 p q) ((contrEquiv1 d K h.rank h.size).symm k) = ix2 k q := by
    funext a
    apply Fin.ext
    match a with
    | ⟨0, _⟩ => exact (d.rhsIdx_val_of_single h.rc _ _).trans (contrEquiv1_symm_val d K h.rank h.size k)
    | ⟨1, _⟩ => exact h.rhs_col _ _
  rw [hl, hr]

end PlainMatmul

end
-- ==== Proof.Layer.lean ====
/-
  One graph-convolution layer that aggregates over neighbours, as a function of its four argument arrays over the
  extended reals.

  For node features `x` (10000 nodes, 128 features), an adjacency matrix `adj` (10000 x 10000, any entries), a weight
  matrix `W` (256 x 256) and a bias `b` (256), the layer's output at node `r` and channel `q` is

      max ( ∑ k < 128, x[r, k] · W[k, q]  +  ∑ j < 128, (∑ n, adj[r, n] · x[n, j]) · W[128 + j, q]  +  b[q] ,  0 ).

  The first sum is the node's own features through the upper half of `W`; the second is the adjacency-weighted sum of
  the neighbours' features, `adj · x`, through the lower half (a mean over neighbours when the rows of `adj` sum to one,
  which nothing here assumes). A program that instead lays the two feature blocks side by side into one row of
  256 entries and multiplies by the whole of `W` computes ONE sum over 256 positions; the two agree because a sum over
  256 positions is the sum over the first 128 plus the sum over the last 128 — a fact of any commutative additive
  monoid, so no finiteness of the entries is asked.
-/
import Idealize.ShloMosaic.PureOps.Ideal
import Idealize.ShloMosaic.Lib.ValueIdx

noncomputable section

open scoped BigOperators
open Idealize.ShloMosaic Idealize.ShloMosaic.ValueIdx

namespace GcnLayer

/-- Position `k` of the first half of a row of 256. -/
abbrev lo (k : Fin 128) : Fin 256 := ⟨k.val, by omega⟩

/-- Position `128 + j` of the second half of a row of 256. -/
abbrev hi (j : Fin 128) : Fin 256 := ⟨128 + j.val, by omega⟩

/-- A sum over 256 positions is the sum over the first 128 plus the sum over the last 128. -/
theorem sum_halves {M : Type*} [AddCommMonoid M] (f : Fin 256 → M) :
    ∑ k : Fin 256, f k = ∑ k : Fin 128, f (lo k) + ∑ j : Fin 128, f (hi j) :=
  Fin.sum_univ_add (a := 128) (b := 128) f

/-- The aggregated feature `j` at node `r`: row `r` of the adjacency against column `j` of the features. -/
def agg (x : FVec Ideal (⟨2, ![10000, 128]⟩ : Shape) .f32) (adj : FVec Ideal (⟨2, ![10000, 10000]⟩ : Shape) .f32)
    (r : Fin 10000) (j : Fin 128) : EReal :=
  ∑ n : Fin 10000, (adj (ix2 r n) : EReal) * (x (ix2 n j) : EReal)

/-- The layer's output at node `r`, channel `q`: own features through the upper half of `W`, the aggregated
    features through the lower half, the bias added, clamped below at zero. -/
def out (x : FVec Ideal (⟨2, ![10000, 128]⟩ : Shape) .f32) (adj : FVec Ideal (⟨2, ![10000, 10000]⟩ : Shape) .f32)
    (W : FVec Ideal (⟨2, ![256, 256]⟩ : Shape) .f32) (b : FVec Ideal (⟨1, ![256]⟩ : Shape) .f32)
    (r : Fin 10000) (q : Fin 256) : EReal :=
  max ((∑ k : Fin 128, (x (ix2 r k) : EReal) * (W (ix2 (lo k) q) : EReal)
        + ∑ j : Fin 128, agg x adj r j * (W (ix2 (hi j) q) : EReal))
      + (b (ix1 q) : EReal)) (Ideal.ofBits .f32 0x00000000#32)

/-- The layer's whole output array. -/
def layer (x : FVec Ideal (⟨2, ![10000, 128]⟩ : Shape) .f32) (adj : FVec Ideal (⟨2, ![10000, 10000]⟩ : Shape) .f32)
    (W : FVec Ideal (⟨2, ![256, 256]⟩ : Shape) .f32) (b : FVec Ideal (⟨1, ![256]⟩ : Shape) .f32) :
    FVec Ideal (⟨2, ![10000, 256]⟩ : Shape) .f32 :=
  fun i => out x adj W b (i 0) (i 1)

theorem layer_apply (x : FVec Ideal (⟨2, ![10000, 128]⟩ : Shape) .f32) (adj : FVec Ideal (⟨2, ![10000, 10000]⟩ : Shape) .f32)
    (W : FVec Ideal (⟨2, ![256, 256]⟩ : Shape) .f32) (b : FVec Ideal (⟨1, ![256]⟩ : Shape) .f32)
    (r : Fin 10000) (q : Fin 256) : layer x adj W b (ix2 r q) = out x adj W b r q := rfl

end GcnLayer

end
-- ==== Proof.Body.lean ====
/-
  What the kernel's body computes for one block of 400 nodes, read at an entry.

  The body is handed the block's 400 rows of the adjacency (`a`, 400 x 10000), all the features (`xf`, 10000 x 128),
  the same block's own 400 rows of the features (`xs`), the upper and the lower half of the weight matrix (`w1`, `w2`,
  128 x 256 each) and the bias as one row (`bb`, 1 x 256). It multiplies `a` by `xf` (both first narrowed to a
  shorter float format, which changes nothing over the extended reals), multiplies `xs` by `w1` and the first product
  by `w2`, adds the two, adds the bias row to every row, and clamps at zero. Each of the three products starts from
  the zero matrix, so at row `p`, column `q` the result is

      max ( ∑ k, xs[p, k] · w1[k, q]  +  ∑ j, (∑ n, a[p, n] · xf[n, j]) · w2[j, q]  +  bb[0, q] ,  0 ).
-/
import proofs.«121280_g30348238914072_cont_9to1_1777_12_alg».proof.Proof.Gen.KernelIdeal.Skeleton
import proofs.«121280_g30348238914072_cont_9to1_1777_12_alg».proof.Proof.LibMatmul
import proofs.«121280_g30348238914072_cont_9to1_1777_12_alg».proof.Proof.Layer
import Idealize.ShloMosaic.Lib.Pipeline.Value
import Idealize.ShloMosaic.Lib.ValueLayout

noncomputable section

open scoped BigOperators
open Idealize.ShloMosaic Idealize.ShloMosaic.ValueIdx

namespace Cert.KernelIdeal.Body

open Cert.KernelIdeal Cert.KernelIdeal.Gen

/-- The adjacency block times the features is a plain product of a 400 x 10000 by a 10000 x 128 matrix, … -/
theorem plain_agg : PlainMatmul.IsPlain dot_S400x10000_S10000x128_S400x128_1_0_0_1_n_n := ⟨rfl, rfl, rfl, rfl, rfl, rfl⟩

/-- … and both products with a half of the weights are plain products of a 400 x 128 by a 128 x 256 matrix. -/
theorem plain_w : PlainMatmul.IsPlain dot_S400x128_S128x256_S400x256_1_0_0_1_n_n := ⟨rfl, rfl, rfl, rfl, rfl, rfl⟩

/-- The body's stored value at row `p`, column `q` of the block. -/
theorem pay_apply (xs : Vec Ideal S400x128 .f32) (a : Vec Ideal S400x10000 .f32) (xf : Vec Ideal S10000x128 .f32)
    (w1 w2 : Vec Ideal S128x256 .f32) (bb : Vec Ideal S1x256 .f32) (p : Fin 400) (q : Fin 256) :
    k0_pay1 (F := Ideal) xs a xf w1 w2 bb (ix2 p q)
      = max ((∑ k : Fin 128, (xs (ix2 p k) : EReal) * (w1 (ix2 k q) : EReal)
            + ∑ j : Fin 128, (∑ n : Fin 10000, (a (ix2 p n) : EReal) * (xf (ix2 n j) : EReal)) * (w2 (ix2 j q) : EReal))
          + (bb (ix2 (0 : Fin 1) q) : EReal)) (Ideal.ofBits .f32 0x00000000#32) := by
  unfold k0_pay1
  dsimp only [matmul]
  rw [maximumf_apply, addf_apply, addf_apply, broadcast_apply,
    PlainMatmul.apply plain_w, PlainMatmul.apply plain_w,
    broadcastTo_1b_ab_apply, shapeCast_self, shapeCast_self, shapeCast_self]
  simp only [PlainMatmul.apply plain_agg, truncf_apply, Ideal.ofBits_def]

/-- So when the block's inputs are what the layer reads for node `r` — row `p` of the adjacency block is row `r` of
    `adj`, row `p` of the own rows is row `r` of `x`, the features are `x`, the weight blocks are the two halves of
    `W` at column `q`, the bias row holds `b` — the body's value at `(p, q)` is the layer's output at node `r`, channel
    `q`. -/
theorem pay_eq_out (x : FVec Ideal (⟨2, ![10000, 128]⟩ : Shape) .f32) (adj : FVec Ideal (⟨2, ![10000, 10000]⟩ : Shape) .f32)
    (W : FVec Ideal (⟨2, ![256, 256]⟩ : Shape) .f32) (b : FVec Ideal (⟨1, ![256]⟩ : Shape) .f32)
    (xs : Vec Ideal S400x128 .f32) (a : Vec Ideal S400x10000 .f32) (xf : Vec Ideal S10000x128 .f32)
    (w1 w2 : Vec Ideal S128x256 .f32) (bb : Vec Ideal S1x256 .f32) (r : Fin 10000) (p : Fin 400) (q : Fin 256)
    (hxs : ∀ k : Fin 128, xs (ix2 p k) = x (ix2 r k))
    (ha : ∀ n : Fin 10000, a (ix2 p n) = adj (ix2 r n))
    (hxf : ∀ (n : Fin 10000) (j : Fin 128), xf (ix2 n j) = x (ix2 n j))
    (hw1 : ∀ k : Fin 128, w1 (ix2 k q) = W (ix2 (GcnLayer.lo k) q))
    (hw2 : ∀ j : Fin 128, w2 (ix2 j q) = W (ix2 (GcnLayer.hi j) q))
    (hb : bb (ix2 (0 : Fin 1) q) = b (ix1 q)) :
    k0_pay1 (F := Ideal) xs a xf w1 w2 bb (ix2 p q) = GcnLayer.out x adj W b r q := by
  rw [pay_apply]
  unfold GcnLayer.out GcnLayer.agg
  simp only [hxs, ha, hxf, hw1, hw2, hb]

end Cert.KernelIdeal.Body

end
-- ==== Proof.Inputs.lean ====
/-
  What the body is handed at grid point `t`, read off the argument arrays.

  Point `t` of the 25 works on nodes `400 t … 400 t + 399`. Its adjacency block is those rows of `adj`; the features
  are handed whole, and the body cuts the same 400 rows out of them itself, at the row offset `400 t` it computes from
  the grid coordinate; the two weight blocks are the upper and lower 128 rows of `W`, cut out on the host before the
  launch; the bias block is `b` laid out as one row. The index maps and the row offset are decided once over the grid.
-/
import proofs.«121280_g30348238914072_cont_9to1_1777_12_alg».proof.Proof.Gen.KernelIdeal.Frame
import proofs.«121280_g30348238914072_cont_9to1_1777_12_alg».proof.Proof.Layer
import Idealize.ShloMosaic.Lib.Pipeline.Value
import Idealize.ShloMosaic.Lib.ValueLayout
import Idealize.ShloMosaic.Lib.StableHlo.Run

noncomputable section

namespace Cert.KernelIdeal.Inputs

open Cert.KernelIdeal Cert.KernelIdeal.Gen
open Idealize.ShloMosaic Idealize.ShloMosaic.TcCoe Idealize.ShloMosaic.ValueIdx Idealize.SL.Sem
open GcnLayer

variable {F : FTy → Type} [FloatOps F]
variable (m : (ℓ : Loc nD τ sig) → Buf (Elt F) ℓ)

/-- Over the grid: the adjacency's and the output's block row is the point's number, every other block index is zero,
    and the row offset the body computes is 400 times the point's number. -/
theorem point_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ k0_off1 (grid0.coords t) (0 : Fin 2) = 400 * t.val ∧ k0_off1 (grid0.coords t) (1 : Fin 2) = 0 :=
  (by decide +kernel : ∀ t : Fin grid0.N, _)

/-- The upper weight block is the host's cut of rows `0 … 127` of `W`. -/
theorem upper_eq (c : Dev nD) :
    (V m c main_v0 : S128x256.Idx → Elt F .f32)
      = extractStridedSlice S128x256 ![0, 0] (m ((c : Thread nD τ).loc main_arg2)) Facts₀.slices_S256x256_S128x256_0_0 := by
  dsimp only [Gen.V, Gen.hostOps0]; after_results <;> rfl

/-- The lower weight block is the host's cut of rows `128 … 255` of `W`. -/
theorem lower_eq (c : Dev nD) :
    (V m c main_v1 : S128x256.Idx → Elt F .f32)
      = extractStridedSlice S128x256 ![128, 0] (m ((c : Thread nD τ).loc main_arg2)) Facts₀.slices_S256x256_S128x256_128_0 := by
  dsimp only [Gen.V, Gen.hostOps0]; after_results <;> rfl

/-- The bias block is the host's relayout of `b` as one row. -/
theorem bias_eq (c : Dev nD) :
    (V m c main_v2 : S1x256.Idx → Elt F .f32)
      = shapeCast S1x256 (m ((c : Thread nD τ).loc main_arg3)) Facts₀.shapeCasts_S256_S1x256 := by
  dsimp only [Gen.V, Gen.hostOps0]; after_results <;> rfl

/-- The adjacency block at point `t` holds rows `400 t …` of `adj`. -/
theorem adj_apply (c : Dev nD) (t : Fin cfg0.N) (p : Fin 400) (n : Fin 10000) (r : Fin 10000) (hr : r.val = 400 * t.val + p.val) :
    (iblk m c 0 t : Vec F S400x10000 .f32) (ix2 p n)
      = (m ((c : Thread nD τ).loc main_arg1) : S10000x10000.Idx → Elt F .f32) (ix2 r n) := by
  obtain ⟨e0, e1, -⟩ := point_facts t
  unfold iblk
  rw [View.read_apply]
  show V m c main_arg1 _ = m (c.tc.loc main_arg1) _
  rw [V_main_arg1]
  refine congrArg _ (funext fun a => Fin.ext ?_)
  match a with
  | ⟨0, _⟩ => show win0_0.index t (0 : Fin 2) * 400 + 1 * p.val = r.val; rw [e0, hr]; omega
  | ⟨1, _⟩ => show win0_0.index t (1 : Fin 2) * 10000 + 1 * n.val = n.val; rw [e1]; omega

/-- The features are handed to every point whole. -/
theorem feat_apply (c : Dev nD) (t : Fin cfg0.N) (i : S10000x128.Idx) :
    (iblk m c 1 t : Vec F S10000x128 .f32) i = (m ((c : Thread nD τ).loc main_arg0) : S10000x128.Idx → Elt F .f32) i := by
  obtain ⟨-, -, e0, e1, -⟩ := point_facts t
  unfold iblk
  rw [View.read_apply]
  show V m c main_arg0 _ = m (c.tc.loc main_arg0) _
  rw [V_main_arg0]
  refine congrArg _ (funext fun a => Fin.ext ?_)
  match a with
  | ⟨0, _⟩ => show win0_1.index t (0 : Fin 2) * 10000 + 1 * (i 0).val = (i 0).val; rw [e0]; omega
  | ⟨1, _⟩ => show win0_1.index t (1 : Fin 2) * 128 + 1 * (i 1).val = (i 1).val; rw [e1]; omega

/-- The rows of the features the body cuts out for itself at point `t` are rows `400 t …` of `x`. -/
theorem own_apply (c : Dev nD) (t : Fin cfg0.N) (p : Fin 400) (k : Fin 128) (r : Fin 10000) (hr : r.val = 400 * t.val + p.val) :
    View.ld (iblk m c 1 t : Vec F S10000x128 .f32)
        (Rect.unit (s := S10000x128) (k0_off1 (grid0.coords t)) S400x128.size (Facts₀.k0_off1_inb (grid0.coords t))) (ix2 p k)
      = (m ((c : Thread nD τ).loc main_arg0) : S10000x128.Idx → Elt F .f32) (ix2 r k) := by
  obtain ⟨-, -, -, -, -, -, -, -, -, -, -, -, o0, o1⟩ := point_facts t
  show (iblk m c 1 t : Vec F S10000x128 .f32) _ = _
  rw [feat_apply]
  refine congrArg _ (funext fun a => Fin.ext ?_)
  match a with
  | ⟨0, _⟩ => show k0_off1 (grid0.coords t) (0 : Fin 2) + 1 * p.val = r.val; rw [o0, hr]; omega
  | ⟨1, _⟩ => show k0_off1 (grid0.coords t) (1 : Fin 2) + 1 * k.val = k.val; rw [o1]; omega

/-- The upper weight block holds rows `0 … 127` of `W`. -/
theorem upper_apply (c : Dev nD) (t : Fin cfg0.N) (k : Fin 128) (q : Fin 256) :
    (iblk m c 2 t : Vec F S128x256 .f32) (ix2 k q)
      = (m ((c : Thread nD τ).loc main_arg2) : S256x256.Idx → Elt F .f32) (ix2 (lo k) q) := by
  obtain ⟨-, -, -, -, e0, e1, -⟩ := point_facts t
  unfold iblk
  rw [View.read_apply]
  show (V m c main_v0 : S128x256.Idx → Elt F .f32) _ = _
  rw [upper_eq]
  refine (extractStridedSlice_apply _ _ _ _ (ix2 (lo k) q) fun a => ?_)
  match a with
  | ⟨0, _⟩ => show k.val = 0 + (win0_2.index t (0 : Fin 2) * 128 + 1 * k.val); rw [e0]; omega
  | ⟨1, _⟩ => show q.val = 0 + (win0_2.index t (1 : Fin 2) * 256 + 1 * q.val); rw [e1]; omega

/-- The lower weight block holds rows `128 … 255` of `W`. -/
theorem lower_apply (c : Dev nD) (t : Fin cfg0.N) (j : Fin 128) (q : Fin 256) :
    (iblk m c 3 t : Vec F S128x256 .f32) (ix2 j q)
      = (m ((c : Thread nD τ).loc main_arg2) : S256x256.Idx → Elt F .f32) (ix2 (hi j) q) := by
  obtain ⟨-, -, -, -, -, -, e0, e1, -⟩ := point_facts t
  unfold iblk
  rw [View.read_apply]
  show (V m c main_v1 : S128x256.Idx → Elt F .f32) _ = _
  rw [lower_eq]
  refine (extractStridedSlice_apply _ _ _ _ (ix2 (hi j) q) fun a => ?_)
  match a with
  | ⟨0, _⟩ => show 128 + j.val = 128 + (win0_3.index t (0 : Fin 2) * 128 + 1 * j.val); rw [e0]; omega
  | ⟨1, _⟩ => show q.val = 0 + (win0_3.index t (1 : Fin 2) * 256 + 1 * q.val); rw [e1]; omega

/-- The bias block's one row holds `b`. -/
theorem bias_apply (c : Dev nD) (t : Fin cfg0.N) (q : Fin 256) :
    (iblk m c 4 t : Vec F S1x256 .f32) (ix2 (0 : Fin 1) q)
      = (m ((c : Thread nD τ).loc main_arg3) : S256.Idx → Elt F .f32) (ix1 q) := by
  obtain ⟨-, -, -, -, -, -, -, -, e0, e1, -⟩ := point_facts t
  unfold iblk
  rw [View.read_apply]
  show (V m c main_v2 : S1x256.Idx → Elt F .f32) _ = _
  rw [bias_eq]
  refine shapeCast_apply _ _ _ (ix1 q) ?_
  rw [Shape.rowMajor_val_two, Shape.rowMajor_val_one]
  show q.val = (win0_4.index t (0 : Fin 2) * 1 + 1 * 0) * 256 + (win0_4.index t (1 : Fin 2) * 256 + 1 * q.val)
  rw [e0, e1]; omega

end Cert.KernelIdeal.Inputs

end
-- ==== Proof.Whole.lean ====
/-
  The kernel's result array is the layer of its arguments.

  Grid point `t` writes back, as rows `400 t … 400 t + 399` of the result, what its body stored; by the body's value at an
  entry and what the body was handed, that is the layer's output for those nodes. The 25 blocks of 400 rows tile the
  10000 rows (node `r` lies in the block of point `r / 400`), and each block spans all 256 channels, so the whole
  result array ends holding the layer.
-/
import proofs.«121280_g30348238914072_cont_9to1_1777_12_alg».proof.Proof.Gen.KernelIdeal.Value
import proofs.«121280_g30348238914072_cont_9to1_1777_12_alg».proof.Proof.Block
import proofs.«121280_g30348238914072_cont_9to1_1777_12_alg».proof.Proof.Body
import proofs.«121280_g30348238914072_cont_9to1_1777_12_alg».proof.Proof.Inputs

noncomputable section

namespace Cert.KernelIdeal.Whole

open Cert.KernelIdeal Cert.KernelIdeal.Gen
open Idealize.ShloMosaic Idealize.ShloMosaic.TcCoe Idealize.ShloMosaic.ValueIdx Idealize.SL.Sem
open Idealize.ShloMosaic.Pipeline (Dat)
open GcnLayer

variable (m : (ℓ : Loc nD τ sig) → Buf (Elt Ideal) ℓ) (ρ : Dev nD → PrngReg)

/-- The layer of the arguments as launched on core `c`. -/
abbrev result (c : Dev nD) : S10000x256.Idx → Elt Ideal .f32 :=
  layer (m ((c : Thread nD τ).loc main_arg0)) (m ((c : Thread nD τ).loc main_arg1))
    (m ((c : Thread nD τ).loc main_arg2)) (m ((c : Thread nD τ).loc main_arg3))

/-- What point `t` writes back is its block of the layer. -/
theorem flushed_eq (c : Dev nD) (t : Fin cfg0.N) :
    (dats m 0 c).flushed 5 t = ((cfg0.win 5).blk t).view.read (Elt Ideal) (result m c) := by
  obtain ⟨-, -, -, -, -, -, -, -, -, -, e0, e1, -⟩ := Inputs.point_facts t
  rw [Value.flushed5_A, Block.out_eq]
  funext y
  obtain ⟨p, q, rfl⟩ : ∃ (p : Fin 400) (q : Fin 256), y = ix2 p q := ⟨y 0, y 1, eq_ix2 y⟩
  have hN : cfg0.N = 25 := N_0
  have hr : 400 * t.val + p.val < 10000 := by have := t.isLt; omega
  show k0_pay1 (F := Ideal) _ _ _ _ _ _ (ix2 p q) = result m c (((cfg0.win 5).blk t).view.emb (ix2 p q))
  have hemb : ((cfg0.win 5).blk t).view.emb (ix2 p q) = ix2 (⟨400 * t.val + p.val, hr⟩ : Fin 10000) q := by
    funext a
    apply Fin.ext
    match a with
    | ⟨0, _⟩ => show win0_5.index t (0 : Fin 2) * 400 + 1 * p.val = 400 * t.val + p.val; rw [e0]; omega
    | ⟨1, _⟩ => show win0_5.index t (1 : Fin 2) * 256 + 1 * q.val = q.val; rw [e1]; omega
  rw [hemb]
  exact Body.pay_eq_out _ _ _ _
    (View.ld (iblk m c 1 t : Vec Ideal S10000x128 .f32)
      (Rect.unit (s := S10000x128) (k0_off1 (grid0.coords t)) S400x128.size (Facts₀.k0_off1_inb (grid0.coords t))))
    (iblk m c 0 t) (iblk m c 1 t) (iblk m c 2 t) (iblk m c 3 t) (iblk m c 4 t) ⟨400 * t.val + p.val, hr⟩ p q
    (fun k => Inputs.own_apply m c t p k _ rfl)
    (fun n => Inputs.adj_apply m c t p n _ rfl)
    (fun n j => Inputs.feat_apply m c t (ix2 n j))
    (fun k => Inputs.upper_apply m c t k q)
    (fun j => Inputs.lower_apply m c t j q)
    (Inputs.bias_apply m c t q)

/-- Every entry of the result lies in some point's block: node `r` in the block of point `r / 400`. -/
theorem cover (i : S10000x256.Idx) :
    ∃ t : Fin cfg0.N, (cfg0.win 5).flush t = true ∧ i ∈ ((cfg0.win 5).blk t).view.set := by
  have h0 : (i 0).val < 10000 := (i 0).isLt
  have h1 : (i 1).val < 256 := (i 1).isLt
  have hN : cfg0.N = 25 := N_0
  have ht : (i 0).val / 400 < cfg0.N := by rw [hN]; omega
  obtain ⟨-, -, -, -, -, -, -, -, -, -, e0, e1, -⟩ := Inputs.point_facts ⟨(i 0).val / 400, ht⟩
  refine ⟨⟨(i 0).val / 400, ht⟩, flush0_5 _, ?_⟩
  show i ∈ ((View.whole main_v3).slice (win0_5.rect ⟨(i 0).val / 400, ht⟩)).set
  rw [View.set_slice_whole, Rect.mem_set_unit]
  intro a
  match a with
  | ⟨0, _⟩ =>
    show win0_5.index ⟨(i 0).val / 400, ht⟩ (0 : Fin 2) * 400 ≤ (i 0).val
      ∧ (i 0).val < win0_5.index ⟨(i 0).val / 400, ht⟩ (0 : Fin 2) * 400 + 400
    rw [e0]; show (i 0).val / 400 * 400 ≤ (i 0).val ∧ (i 0).val < (i 0).val / 400 * 400 + 400; omega
  | ⟨1, _⟩ =>
    show win0_5.index ⟨(i 0).val / 400, ht⟩ (1 : Fin 2) * 256 ≤ (i 1).val
      ∧ (i 1).val < win0_5.index ⟨(i 0).val / 400, ht⟩ (1 : Fin 2) * 256 + 256
    rw [e1]; omega

/-- So the result array ends holding the layer. -/
theorem final (c : Dev nD) : (dats m 0 c).arrAt 5 cfg0.N = result m c :=
  (dats m 0 c).arrAt_eq_of_cover 5 (result m c) (fun t _ => flushed_eq m c t) cover

/-- The kernel's run, read: the result at the layer of the arguments, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Whole

end
-- ==== Proof.Reference.lean ====
/-
  The reference program's result, read index by index, is the layer.

  The reference forms the aggregated features `adj · x`, lays them to the right of the features `x` in one row of 256
  entries per node, multiplies that row by the whole weight matrix, adds the bias and clamps at zero. Read at node `r`
  and channel `q`: the widened row holds `x[r, k]` at position `k < 128` and the aggregated feature `j` at position
  `128 + j`, so its product with column `q` of `W`, one sum over 256 positions, splits into the layer's two sums of
  128 terms each; the bias and the clamp are read as they stand.
-/
import proofs.«121280_g30348238914072_cont_9to1_1777_12_alg».proof.Proof.Gen.ReferenceIdeal.Read
import proofs.«121280_g30348238914072_cont_9to1_1777_12_alg».proof.Proof.Layer

noncomputable section

open scoped BigOperators
open Idealize.ShloMosaic Idealize.ShloMosaic.ValueIdx

namespace Cert.ReferenceIdeal.RefValue

open Cert.ReferenceIdeal Cert.ReferenceIdeal.Gen Cert.ReferenceIdeal.Read GcnLayer

variable (x : (⟨S10000x128, .f32⟩ : BufTy).Contents (Elt Ideal)) (adj : (⟨S10000x10000, .f32⟩ : BufTy).Contents (Elt Ideal))
  (W : (⟨S256x256, .f32⟩ : BufTy).Contents (Elt Ideal)) (b : (⟨S256, .f32⟩ : BufTy).Contents (Elt Ideal))

/-- The product `adj · x` at node `r`, feature `j`, is the aggregated feature. -/
theorem agg_apply (r : Fin 10000) (j : Fin 128) : val_main_v0 (F := Ideal) x adj (ix2 r j) = agg x adj r j := by
  rw [val_main_v0_apply]
  unfold agg
  refine Finset.sum_congr rfl fun n _ => ?_
  have el : lidx_main_v0 (ix2 r j) n = ix2 r n := funext fun a => Fin.ext (by match a with | ⟨0, _⟩ => rfl | ⟨1, _⟩ => rfl)
  have er : ridx_main_v0 (ix2 r j) n = ix2 n j := funext fun a => Fin.ext (by match a with | ⟨0, _⟩ => rfl | ⟨1, _⟩ => rfl)
  rw [el, er]

/-- The widened row holds the node's own feature `k` at position `k` of its first half … -/
theorem wide_lo (r : Fin 10000) (k : Fin 128) : val_main_v1 (F := Ideal) x adj (ix2 r (lo k)) = x (ix2 r k) := by
  unfold val_main_v1
  exact concatenate_pair_apply_left (t := S10000x256) (s₁ := S10000x128) (s₂ := S10000x128) 1 _ _ _ (ix2 r (lo k)) rfl
    (ix2 r k) (fun a => by match a with | ⟨0, _⟩ => rfl | ⟨1, _⟩ => rfl)

/-- … and the aggregated feature `j` at position `128 + j`, in its second half. -/
theorem wide_hi (r : Fin 10000) (j : Fin 128) : val_main_v1 (F := Ideal) x adj (ix2 r (hi j)) = agg x adj r j := by
  unfold val_main_v1
  rw [concatenate_pair_apply_right (t := S10000x256) (s₁ := S10000x128) (s₂ := S10000x128) 1 _ _ _ (ix2 r (hi j)) rfl rfl
    (ix2 r j)
    (fun a ha => by
      match a with
      | ⟨0, _⟩ => rfl
      | ⟨1, _⟩ => exact absurd rfl ha)
    (Nat.add_comm _ _)]
  exact agg_apply x adj r j

/-- The reference's result is the layer of its arguments. -/
theorem result_eq : val_main_v6 (F := Ideal) x adj W b = layer x adj W b := by
  funext i
  obtain ⟨r, q, rfl⟩ : ∃ (r : Fin 10000) (q : Fin 256), i = ix2 r q := ⟨i 0, i 1, eq_ix2 i⟩
  rw [layer_apply, val_main_v6_apply, val_main_v5_apply, val_main_v2_apply, val_main_v4_apply, val_main_v3_apply,
    val_main_call0_v0_apply, val_main_call0_cst_apply, sum_halves]
  unfold out
  have el : ∀ k : Fin 256, lidx_main_v2 (ix2 r q) k = ix2 r k := fun k =>
    funext fun a => Fin.ext (by match a with | ⟨0, _⟩ => rfl | ⟨1, _⟩ => rfl)
  have er : ∀ k : Fin 256, ridx_main_v2 (ix2 r q) k = ix2 k q := fun k =>
    funext fun a => Fin.ext (by match a with | ⟨0, _⟩ => rfl | ⟨1, _⟩ => rfl)
  have eb : idx_main_v3 (idx_main_v4 (ix2 r q)) = ix1 q := funext fun a => Fin.ext (by match a with | ⟨0, _⟩ => rfl)
  simp only [el, er, eb, wide_lo, wide_hi]
  rfl

end Cert.ReferenceIdeal.RefValue

end
-- ==== Proof.lean ====
/-
  A graph-convolution layer computed block by block equals the same layer computed with whole matrices.

  Both programs take node features `x` (10000 x 128), an adjacency matrix `adj` (10000 x 10000), weights `W` (256 x 256)
  and a bias `b` (256) and return, for node `r` and channel `q`,

      max ( ∑ k < 128, x[r, k] · W[k, q]  +  ∑ j < 128, (∑ n, adj[r, n] · x[n, j]) · W[128 + j, q]  +  b[q] ,  0 ).

  The kernel works on 25 blocks of 400 nodes. For a block it multiplies the block's rows of `adj` by all of `x`,
  multiplies the block's own rows of `x` by the upper half of `W` and the first product by the lower half, adds the two,
  adds the bias and clamps at zero; the blocks tile the result. The reference forms `adj · x` for all nodes, lays it
  to the right of `x` in one row of 256 entries per node, multiplies by the whole of `W`, adds the bias and clamps.
  Over the extended reals a narrowing of the float format is the identity and each matrix product is the plain sum
  over the contracted axis, so the two differ only in that the reference has ONE sum over 256 positions where the kernel
  has TWO over 128: the sum over the first half plus the sum over the second half. That holds in any commutative
  additive monoid, so the inputs' finiteness is never used.

  The modules: Layer (the function above and the law of the two halves), Reference (the reference's result, read index
  by index, is the layer), Body (the kernel body's stored value at an entry), Block (what a grid point leaves in the
  output's staging buffer is that stored value), Inputs (what the body is handed at a point, read off the arguments),
  Whole (the blocks tile the result, which is therefore the layer). Below, the two runs are set side by side.
-/
import proofs.«121280_g30348238914072_cont_9to1_1777_12_alg».proof.Defs
import proofs.«121280_g30348238914072_cont_9to1_1777_12_alg».proof.Proof.Gen.Kernel
import proofs.«121280_g30348238914072_cont_9to1_1777_12_alg».proof.Proof.Gen.Kernel.Skeleton
import proofs.«121280_g30348238914072_cont_9to1_1777_12_alg».proof.Proof.Gen.Kernel.Launch
import proofs.«121280_g30348238914072_cont_9to1_1777_12_alg».proof.Proof.Gen.Kernel.Points
import proofs.«121280_g30348238914072_cont_9to1_1777_12_alg».proof.Proof.Gen.Kernel.Frame
import proofs.«121280_g30348238914072_cont_9to1_1777_12_alg».proof.Proof.Gen.KernelIdeal
import proofs.«121280_g30348238914072_cont_9to1_1777_12_alg».proof.Proof.Gen.KernelIdeal.Skeleton
import proofs.«121280_g30348238914072_cont_9to1_1777_12_alg».proof.Proof.Gen.KernelIdeal.Launch
import proofs.«121280_g30348238914072_cont_9to1_1777_12_alg».proof.Proof.Gen.KernelIdeal.Points
import proofs.«121280_g30348238914072_cont_9to1_1777_12_alg».proof.Proof.Gen.KernelIdeal.Frame
import proofs.«121280_g30348238914072_cont_9to1_1777_12_alg».proof.Proof.Gen.ReferenceIdeal
import proofs.«121280_g30348238914072_cont_9to1_1777_12_alg».proof.Proof.Gen.Pre_finite_inputs
import proofs.«121280_g30348238914072_cont_9to1_1777_12_alg».proof.Proof.Gen.KernelIdeal.Value
import proofs.«121280_g30348238914072_cont_9to1_1777_12_alg».proof.Proof.Gen.ReferenceIdeal.Run
import proofs.«121280_g30348238914072_cont_9to1_1777_12_alg».proof.Proof.Gen.ReferenceIdeal.Read
import proofs.«121280_g30348238914072_cont_9to1_1777_12_alg».proof.Proof.Whole
import proofs.«121280_g30348238914072_cont_9to1_1777_12_alg».proof.Proof.Reference
import Idealize.ShloMosaic.Adequacy
import Idealize.ShloMosaic.Init

noncomputable section

namespace Cert.Proof

open Idealize.ShloMosaic Idealize.ShloMosaic.TcCoe Idealize.SL.Sem

/-- The kernel as printed runs to the end without a fault and leaves its arguments as they were. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference is a straight line of host operations: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- Reading the kernel over the extended reals rewrote no operation. -/
theorem preserves : Cert.preserves_Kernel_KernelIdeal := trivial

/-- From arguments that agree, the kernel ends with the layer of its arguments in its result array, and the reference
    ends with the layer of its own: the same array. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
